-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S512x2048 : Shape := ⟨2, ![512, 2048]⟩
abbrev S512 : Shape := ⟨1, ![512]⟩
abbrev S32x512 : Shape := ⟨2, ![32, 512]⟩
abbrev S32 : Shape := ⟨1, ![32]⟩
abbrev S2048x32 : Shape := ⟨2, ![2048, 32]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg4 : FVec F S32 .f32) (main_arg5 : FVec F S2048x32 .f32) (main_arg6 : FVec F S2048x32 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2048x32 .f32 := Host.absf main_arg5
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  main_v33

def fn {F : FTy → Type} [FloatOps F] (main_arg0 : FVec F S16384x2048 .f32) (main_arg1 : FVec F S512x2048 .f32) (main_arg2 : FVec F S512 .f32) (main_arg3 : FVec F S32x512 .f32) (main_arg4 : FVec F S32 .f32) (main_arg5 : FVec F S2048x32 .f32) (main_arg6 : FVec F S2048x32 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_v13 main_v16
-- ==== Kernel.lean ====
abbrev S16384x2048 : Shape := ⟨2, ![16384, 2048]⟩
abbrev S512x2048 : Shape := ⟨2, ![512, 2048]⟩
abbrev S512 : Shape := ⟨1, ![512]⟩
abbrev S32x512 : Shape := ⟨2, ![32, 512]⟩
abbrev S32 : Shape := ⟨1, ![32]⟩
abbrev S2048x32 : Shape := ⟨2, ![2048, 32]⟩
abbrev S2048x512 : Shape := ⟨2, ![2048, 512]⟩
abbrev S512x32 : Shape := ⟨2, ![512, 32]⟩
abbrev S1x512 : Shape := ⟨2, ![1, 512]⟩
abbrev S1x32 : Shape := ⟨2, ![1, 32]⟩
abbrev S32x2048 : Shape := ⟨2, ![32, 2048]⟩
abbrev S32x4096 : Shape := ⟨2, ![32, 4096]⟩
abbrev S16384x1 : Shape := ⟨2, ![16384, 1]⟩
abbrev S512x1 : Shape := ⟨2, ![512, 1]⟩
abbrev S512x512 : Shape := ⟨2, ![512, 512]⟩
abbrev S512x4096 : Shape := ⟨2, ![512, 4096]⟩
abbrev S16384 : Shape := ⟨1, ![16384]⟩

abbrev nBuf : Space → Nat
  | .hbm => 16
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S512x2048, .f32⟩
  | .hbm, ⟨2, _⟩ => ⟨S512, .f32⟩
  | .hbm, ⟨3, _⟩ => ⟨S32x512, .f32⟩
  | .hbm, ⟨4, _⟩ => ⟨S32, .f32⟩
  | .hbm, ⟨5, _⟩ => ⟨S2048x32, .f32⟩
  | .hbm, ⟨6, _⟩ => ⟨S2048x32, .f32⟩
  | .hbm, ⟨7, _⟩ => ⟨S2048x512, .f32⟩
  | .hbm, ⟨8, _⟩ => ⟨S512x32, .f32⟩
  | .hbm, ⟨9, _⟩ => ⟨S1x512, .f32⟩
  | .hbm, ⟨10, _⟩ => ⟨S1x32, .f32⟩
  | .hbm, ⟨11, _⟩ => ⟨S32x2048, .f32⟩
  | .hbm, ⟨12, _⟩ => ⟨S32x2048, .f32⟩
  | .hbm, ⟨13, _⟩ => ⟨S32x4096, .f32⟩
  | .hbm, ⟨14, _⟩ => ⟨S16384x1, .f32⟩
  | .hbm, ⟨15, _⟩ => ⟨S16384, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S1x512, .f32⟩
  | .local _ .vmem, ⟨4, _⟩ => ⟨S512x32, .f32⟩
  | .local _ .vmem, ⟨5, _⟩ => ⟨S1x32, .f32⟩
  | .local _ .vmem, ⟨6, _⟩ => ⟨S32x4096, .f32⟩
  | .local _ .vmem, ⟨7, _⟩ => ⟨S512x1, .f32⟩
  | .local _ .vmem, ⟨8, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x2048_S2048x512_1_0 : S512x2048.Transposes [1, 0] S2048x512
  transposes_S32x512_S512x32_1_0 : S32x512.Transposes [1, 0] S512x32
  shapeCasts_S512_S1x512 : S512.ShapeCasts S1x512
  shapeCasts_S32_S1x32 : S32.ShapeCasts S1x32
  transposes_S2048x32_S32x2048_1_0 : S2048x32.Transposes [1, 0] S32x2048
  concatenates_S32x2048_S32x2048_S32x4096_d1 : Shape.Concatenates [S32x2048, S32x2048] S32x4096 1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  slices_S512x4096_o0_0_S512x2048 : S512x4096.Slices ![0, 0] S512x2048
  slices_S512x4096_o0_2048_S512x2048 : S512x4096.Slices ![0, 2048] S512x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  dot_S512x2048_S2048x512_S512x512_1_0_0_1_n_n_wf : DotDims.WF S512x2048 S2048x512 S512x512 [1] [0] [0] [1] [] []
  dot_S512x512_S512x32_S512x32_1_0_0_1_n_n_wf : DotDims.WF S512x512 S512x32 S512x32 [1] [0] [0] [1] [] []
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x4096.size a ≤ S32x4096.size a
  hwx0_5 : ∀ i : grid0.Coords, EltTy.bits .f32 = 32 ∨ (Rect.block (s := S32x4096) S32x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S16384x1.size a
  hwx0_6 : ∀ i : grid0.Coords, EltTy.bits .f32 = 32 ∨ (Rect.block (s := S16384x1) S512x1.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S512x2048 : Shape := ⟨2, ![512, 2048]⟩
abbrev S512 : Shape := ⟨1, ![512]⟩
abbrev S32x512 : Shape := ⟨2, ![32, 512]⟩
abbrev S32 : Shape := ⟨1, ![32]⟩
abbrev S2048x32 : Shape := ⟨2, ![2048, 32]⟩
abbrev S2048x512 : Shape := ⟨2, ![2048, 512]⟩
abbrev S16384x512 : Shape := ⟨2, ![16384, 512]⟩
abbrev S1x512 : Shape := ⟨2, ![1, 512]⟩
abbrev S_ : Shape := ⟨0, ![]⟩
abbrev S512x32 : Shape := ⟨2, ![512, 32]⟩
abbrev S16384x32 : Shape := ⟨2, ![16384, 32]⟩
abbrev S1x32 : Shape := ⟨2, ![1, 32]⟩
abbrev S32x2048 : Shape := ⟨2, ![32, 2048]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S512x2048, .f32⟩
  | .hbm, ⟨2, _⟩ => ⟨S512, .f32⟩
  | .hbm, ⟨3, _⟩ => ⟨S32x512, .f32⟩
  | .hbm, ⟨4, _⟩ => ⟨S32, .f32⟩
  | .hbm, ⟨5, _⟩ => ⟨S2048x32, .f32⟩
  | .hbm, ⟨6, _⟩ => ⟨S2048x32, .f32⟩
  | .hbm, ⟨7, _⟩ => ⟨S2048x512, .f32⟩
  | .hbm, ⟨8, _⟩ => ⟨S16384x512, .f32⟩
  | .hbm, ⟨9, _⟩ => ⟨S1x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S512x32, .f32⟩
  | .hbm, ⟨16, _⟩ => ⟨S16384x32, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S32x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S32x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  transposes_S512x2048_S2048x512_1_0 : S512x2048.Transposes [1, 0] S2048x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S32x512_S512x32_1_0 : S32x512.Transposes [1, 0] S512x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S2048x32_S32x2048_1_0 : S2048x32.Transposes [1, 0] S32x2048
  reducesTo_S16384x2048_S16384_d1 : S16384x2048.ReducesTo [1] S16384
  h_S_ : 0 < S_.numel
  bcast_S_S16384 : S_.BroadcastsInDim S16384 (![] : Fin 0 → Fin S16384.rank)
  dot_S16384x2048_S2048x512_S16384x512_1_0_0_1_n_n_wf : DotDims.WF S16384x2048 S2048x512 S16384x512 [1] [0] [0] [1] [] []
  dot_S16384x512_S512x32_S16384x32_1_0_0_1_n_n_wf : DotDims.WF S16384x512 S512x32 S16384x32 [1] [0] [0] [1] [] []
  dot_S16384x32_S32x2048_S16384x2048_1_0_0_1_n_n_wf : DotDims.WF S16384x32 S32x2048 S16384x2048 [1] [0] [0] [1] [] []

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x512_S512x32_S16384x32_1_0_0_1_n_n : DotDims S16384x512 S512x32 S16384x32 where
  lhsContracting := [1]
  rhsContracting := [0]
  lhsNonContracting := [0]
  rhsNonContracting := [1]
  lhsBatch := []
  rhsBatch := []
  wf := dot_S16384x512_S512x32_S16384x32_1_0_0_1_n_n_wf
def dot_S16384x32_S32x2048_S16384x2048_1_0_0_1_n_n : DotDims S16384x32 S32x2048 S16384x2048 where
  lhsContracting := [1]
  rhsContracting := [0]
  lhsNonContracting := [0]
  rhsNonContracting := [1]
  lhsBatch := []
  rhsBatch := []
  wf := dot_S16384x32_S32x2048_S16384x2048_1_0_0_1_n_n_wf

class Facts : Prop extends Facts₀ where

variable [Facts]
-- ==== Proof.Score.lean ====
/-
  The value both programs compute, one row of `x` at a time, over the extended reals.

  For a row `ρ : Fin 2048 → EReal` of `x`:
    hidden q   = max (Σ_k ρ k · W1[q, k] + b1[q]) 0                  (the first linear layer and its relu)
    feature r  = Σ_q hidden q · W2[r, q] + b2[r]                      (the second linear layer)
    best M     = the maximum over the 2048 rows `j` of a memory table `M` of Σ_r feature r · M[j, r],
                 taken from −∞
    rowScore   = logistic (best A · 2⁻⁵ − best N · 2⁻⁵)
  and the result at `i` is `rowScore` of row `i` of `x`.  The float words (zero, −∞, 2⁻⁵) are kept as the
  words the two programs print: the same word on both sides is never evaluated.  Nothing here needs an
  algebraic law of the extended reals: the two programs add and multiply the same numbers in the same order,
  and differ only in how they lay the arrays out.
-/
import Idealize.ShloMosaic.PureOps.Ideal
import Idealize.ShloMosaic.Lib.ValueIdx

noncomputable section

namespace Cert.MemoryScore

open Idealize.ShloMosaic Idealize.ShloMosaic.ValueIdx

/-- Hidden unit `q` of a row: the relu of the row's product with row `q` of `W1`, plus the bias. -/
def hidden (W1 : FVec Ideal ⟨2, ![512, 2048]⟩ .f32) (b1 : FVec Ideal ⟨1, ![512]⟩ .f32) (row : Fin 2048 → EReal)
    (q : Fin 512) : EReal :=
  max ((∑ k : Fin 2048, row k * W1 (ix2 q k)) + b1 (ix1 q)) (Ideal.ofBits .f32 0x00000000#32)

/-- Feature `r` of a row: the hidden units' product with row `r` of `W2`, plus the bias (no relu). -/
def feature (W1 : FVec Ideal ⟨2, ![512, 2048]⟩ .f32) (b1 : FVec Ideal ⟨1, ![512]⟩ .f32)
    (W2 : FVec Ideal ⟨2, ![32, 512]⟩ .f32) (b2 : FVec Ideal ⟨1, ![32]⟩ .f32) (row : Fin 2048 → EReal) (r : Fin 32) : EReal :=
  (∑ q : Fin 512, hidden W1 b1 row q * W2 (ix2 r q)) + b2 (ix1 r)

/-- The best match of a feature vector in a memory table: the maximum, from −∞, over the table's rows of the
    row's inner product with the features. -/
def best (mem : FVec Ideal ⟨2, ![2048, 32]⟩ .f32) (f : Fin 32 → EReal) : EReal :=
  (Finset.univ : Finset (Fin 2048)).fold max (Ideal.ofBits .f32 0xFF800000#32)
    (fun j => ∑ r : Fin 32, f r * mem (ix2 j r))

/-- One row's result: the logistic of the difference of the two tables' best matches, each scaled by 2⁻⁵. -/
def rowScore (W1 : FVec Ideal ⟨2, ![512, 2048]⟩ .f32) (b1 : FVec Ideal ⟨1, ![512]⟩ .f32)
    (W2 : FVec Ideal ⟨2, ![32, 512]⟩ .f32) (b2 : FVec Ideal ⟨1, ![32]⟩ .f32)
    (am nm : FVec Ideal ⟨2, ![2048, 32]⟩ .f32) (row : Fin 2048 → EReal) : EReal :=
  Ideal.logistic (best am (feature W1 b1 W2 b2 row) * Ideal.ofBits .f32 0x3D000000#32
    - best nm (feature W1 b1 W2 b2 row) * Ideal.ofBits .f32 0x3D000000#32)

/-- The whole result: entry `i` is the score of row `i` of `x`. -/
def G (x : FVec Ideal ⟨2, ![16384, 2048]⟩ .f32) (W1 : FVec Ideal ⟨2, ![512, 2048]⟩ .f32) (b1 : FVec Ideal ⟨1, ![512]⟩ .f32)
    (W2 : FVec Ideal ⟨2, ![32, 512]⟩ .f32) (b2 : FVec Ideal ⟨1, ![32]⟩ .f32)
    (am nm : FVec Ideal ⟨2, ![2048, 32]⟩ .f32) : FVec Ideal ⟨1, ![16384]⟩ .f32 :=
  fun i => rowScore W1 b1 W2 b2 am nm (fun k => x (ix2 (i 0) k))

/-- The same as one column: what the kernel's output array holds before the final reshape. -/
def Gcol (x : FVec Ideal ⟨2, ![16384, 2048]⟩ .f32) (W1 : FVec Ideal ⟨2, ![512, 2048]⟩ .f32) (b1 : FVec Ideal ⟨1, ![512]⟩ .f32)
    (W2 : FVec Ideal ⟨2, ![32, 512]⟩ .f32) (b2 : FVec Ideal ⟨1, ![32]⟩ .f32)
    (am nm : FVec Ideal ⟨2, ![2048, 32]⟩ .f32) : FVec Ideal ⟨2, ![16384, 1]⟩ .f32 :=
  fun i => rowScore W1 b1 W2 b2 am nm (fun k => x (ix2 (i 0) k))

end Cert.MemoryScore

end
-- ==== Proof.RefScore.lean ====
/-
  The reference program computes the specification, one row of `x` at a time.

  Entry `i` of the reference's result depends on row `i` of `x` only.  Read index by index:
    the first product with the transposed `W1`, the bias row broadcast down the rows, and the relu against the zero
      word give, at (i, q), the hidden unit `q` of row `i`;
    the second product with the transposed `W2` and its bias give, at (i, r), feature `r` of row `i`;
    the product with a transposed memory table gives, at (i, j), the inner product of the features of row `i` with row
      `j` of the table, and the maximum-reduction over the second axis, from the −∞ word, is the fold of `max` over
      `j`: the best match of row `i` in that table;
    the two best matches are each multiplied by the word 2⁻⁵ and subtracted, and `1 / (1 + exp (−d))` of the difference
      `d` is the logistic of `d`.
  These are the sums, the fold and the words of the specification in the same order, so no law of the extended reals is
  used: every step identifies an index the program computes with the index the specification names, and the one word
  that is evaluated is `1.0`, which is the extended real `1`.
-/
import proofs.«148672_j77910706749781_2_alg».proof.Proof.Gen.ReferenceIdeal.Read
import proofs.«148672_j77910706749781_2_alg».proof.Proof.Score
import Idealize.ShloMosaic.Lib.ValueIdx
import Idealize.ShloMosaic.Lib.Pipeline.Value
import Idealize.ShloMosaic.PureOps.Ideal.Laws
import Idealize.ShloMosaic.PureOps.Reduce
import Idealize.ShloMosaic.Lib.IdealHost

noncomputable section

open Idealize.ShloMosaic Idealize.ShloMosaic.ValueIdx

namespace Cert.ReferenceIdeal.RefValue

open Cert.ReferenceIdeal Cert.ReferenceIdeal.Gen Cert.ReferenceIdeal.Read Cert.MemoryScore

variable (x0 : FVec Ideal S16384x2048 .f32) (x1 : FVec Ideal S512x2048 .f32) (x2 : FVec Ideal S512 .f32)
  (x3 : FVec Ideal S32x512 .f32) (x4 : FVec Ideal S32 .f32) (x5 x6 : FVec Ideal S2048x32 .f32)

/-- The first layer before its relu: at (i, q), row `i` of `x` times row `q` of `W1`, plus `b1[q]`. -/
theorem v4_apply (i : Fin 16384) (q : Fin 512) :
    val_main_v4 (F := Ideal) x0 x1 x2 (ix2 i q)
      = (∑ k : Fin 2048, x0 (ix2 i k) * x1 (ix2 q k)) + x2 (ix1 q) := by
  rw [val_main_v4_apply, val_main_v1_apply, val_main_v3_apply, val_main_v2_apply]
  show (_ : EReal) + _ = _
  refine congrArg₂ (· + ·) (Finset.sum_congr rfl fun k _ => ?_) ?_
  · rw [val_main_v0_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The relu of the first layer is the specification's hidden unit. -/
theorem v5_apply (i : Fin 16384) (q : Fin 512) :
    val_main_v5 (F := Ideal) x0 x1 x2 (ix2 i q) = hidden x1 x2 (fun k => x0 (ix2 i k)) q := by
  rw [val_main_v5_apply, val_main_call0_v0_apply, val_main_call0_cst_apply, v4_apply]
  rfl

/-- The second layer is the specification's feature. -/
theorem v10_apply (i : Fin 16384) (r : Fin 32) :
    val_main_v10 (F := Ideal) x0 x1 x2 x3 x4 (ix2 i r) = feature x1 x2 x3 x4 (fun k => x0 (ix2 i k)) r := by
  rw [val_main_v10_apply, val_main_v7_apply, val_main_v9_apply, val_main_v8_apply]
  unfold feature
  show (_ : EReal) + _ = _
  refine congrArg₂ (· + ·) (Finset.sum_congr rfl fun q _ => ?_) ?_
  · rw [val_main_v6_apply,
      show lidx_main_v7 (ix2 i r) q = ix2 i q from
        funext fun a => Fin.ext (by match a with | ⟨0, _⟩ => rfl | ⟨1, _⟩ => rfl),
      v5_apply]
    exact congrArg (hidden x1 x2 (fun k => x0 (ix2 i k)) q * ·) (congrArg x3
      (funext fun a => Fin.ext (by match a with | ⟨0, _⟩ => rfl | ⟨1, _⟩ => rfl)))
  · exact congrArg x4 (funext fun a => Fin.ext (by match a with | ⟨0, _⟩ => rfl))

/-- The scores against a memory table: at (i, j), the features of row `i` times row `j` of the table. -/
theorem v12_apply (i : Fin 16384) (j : Fin 2048) :
    val_main_v12 (F := Ideal) x0 x1 x2 x3 x4 x5 (ix2 i j)
      = ∑ r : Fin 32, feature x1 x2 x3 x4 (fun k => x0 (ix2 i k)) r * x5 (ix2 j r) := by
  rw [val_main_v12_apply]
  refine Finset.sum_congr rfl fun r _ => ?_
  rw [val_main_v11_apply,
    show lidx_main_v12 (ix2 i j) r = ix2 i r from
      funext fun a => Fin.ext (by match a with | ⟨0, _⟩ => rfl | ⟨1, _⟩ => rfl),
    v10_apply]
  exact congrArg (feature x1 x2 x3 x4 (fun k => x0 (ix2 i k)) r * ·) (congrArg x5
    (funext fun a => Fin.ext (by match a with | ⟨0, _⟩ => rfl | ⟨1, _⟩ => rfl)))

/-- The same with the second table (the program prints the product a second time). -/
theorem v17_apply (i : Fin 16384) (j : Fin 2048) :
    val_main_v17 (F := Ideal) x0 x1 x2 x3 x4 x6 (ix2 i j)
      = ∑ r : Fin 32, feature x1 x2 x3 x4 (fun k => x0 (ix2 i k)) r * x6 (ix2 j r) := by
  rw [val_main_v17_apply]
  refine Finset.sum_congr rfl fun r _ => ?_
  rw [val_main_v16_apply,
    show lidx_main_v17 (ix2 i j) r = ix2 i r from
      funext fun a => Fin.ext (by match a with | ⟨0, _⟩ => rfl | ⟨1, _⟩ => rfl),
    v10_apply]
  exact congrArg (feature x1 x2 x3 x4 (fun k => x0 (ix2 i k)) r * ·) (congrArg x6
    (funext fun a => Fin.ext (by match a with | ⟨0, _⟩ => rfl | ⟨1, _⟩ => rfl)))

/-- Dropping the second axis of a [16384, 2048] array leaves [16384]: the fact that names the inserted coordinate. -/
theorem reduces_rows : Shape.Reduces S16384x2048 [1] S16384 := by decide

/-- The index over row `i` with `j` inserted on the dropped axis is (i, j). -/
theorem lift_rows (i : Fin 16384) (j : Fin 2048) : reduces_rows.lift (ix1 i) j = ix2 i j :=
  funext fun c => Fin.ext (by match c with | ⟨0, _⟩ => rfl | ⟨1, _⟩ => rfl)

/-- A maximum-reduction over the second axis, at `i`: the fold of `max`, from the initial value, over row `i`. -/
theorem rowMax_apply (y : FVec Ideal S16384x2048 .f32) (c : FVec Ideal S_ .f32) (i : Fin 16384) :
    Host.reduce (FloatOps.maximumf (F := Ideal) (φ := .f32)) y c reducesTo_S16384x2048_S16384_d1 h_S_ (ix1 i)
      = (Finset.univ : Finset (Fin 2048)).fold max (c (Shape.Idx.first h_S_)) (fun j => y (ix2 i j)) := by
  refine (Host.reduce_eq_fold_single _ y c reducesTo_S16384x2048_S16384_d1 reduces_rows h_S_ (ix1 i)).trans ?_
  exact Finset.fold_congr fun j _ => congrArg y (lift_rows i j)

/-- The first table's row maximum is the specification's best match. -/
theorem v13_apply (i : Fin 16384) :
    val_main_v13 (F := Ideal) x0 x1 x2 x3 x4 x5 (ix1 i)
      = best x5 (feature x1 x2 x3 x4 (fun k => x0 (ix2 i k))) := by
  unfold val_main_v13
  refine (rowMax_apply _ _ i).trans ?_
  unfold best
  exact Finset.fold_congr fun j _ => v12_apply x0 x1 x2 x3 x4 x5 i j

/-- The second table's likewise. -/
theorem v18_apply (i : Fin 16384) :
    val_main_v18 (F := Ideal) x0 x1 x2 x3 x4 x6 (ix1 i)
      = best x6 (feature x1 x2 x3 x4 (fun k => x0 (ix2 i k))) := by
  unfold val_main_v18
  refine (rowMax_apply _ _ i).trans ?_
  unfold best
  exact Finset.fold_congr fun j _ => v17_apply x0 x1 x2 x3 x4 x6 i j

/-- The reference's result is the specification: entry `i` is the logistic of the difference of the two best matches
    of row `i`'s features, each scaled by the word 2⁻⁵.  The program spells the logistic `1 / (1 + exp (−d))` with the
    word of `1.0`, which is the extended real `1`. -/
theorem result_eq :
    val_main_v27 (F := Ideal) x0 x1 x2 x3 x4 x5 x6 = G x0 x1 x2 x3 x4 x5 x6 := by
  funext i
  obtain ⟨a, rfl⟩ : ∃ a : Fin 16384, i = ix1 a := ⟨i 0, eq_ix1 i⟩
  rw [val_main_v27_apply, val_main_v26_apply, val_main_cst_4_apply, val_main_v25_apply, val_main_v24_apply,
    val_main_cst_3_apply, val_main_v23_apply, val_main_v22_apply, val_main_v21_apply, val_main_v15_apply,
    val_main_v20_apply, val_main_v14_apply, val_main_cst_0_apply, val_main_v19_apply, val_main_cst_2_apply,
    v13_apply, v18_apply, Ideal.ofBits_def, Ideal.ofBits_one_f32]
  rfl

end Cert.ReferenceIdeal.RefValue

end
-- ==== Proof.Staged.lean ====
/-
  What the pallas_call finds in the arrays the host lines before it wrote, entry by entry.

  Before the call the program lays the small operands out for the kernel: `W1` and `W2` transposed, the two bias
  vectors as one-row matrices, and the two memory tables transposed and set side by side along the columns
  (columns 0 … 2047 the first table, columns 2048 … 4095 the second).  Read at an index these are:
    W1ᵀ[k, q] = W1[q, k],   W2ᵀ[q, r] = W2[r, q],   b1row[0, q] = b1[q],   b2row[0, r] = b2[r],
    memcat[r, j] = A[j, r]  and  memcat[r, 2048 + j] = N[j, r]   for j < 2048.
  Nothing here depends on the float instance.
-/
import proofs.«148672_j77910706749781_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The arrays as terms of the arguments -/

theorem V_w1t (c : Dev nD) :
    (V m c main_v0 : S2048x512.Idx → Elt F .f32)
      = transpose S2048x512 [1, 0] (m ((c : Thread nD τ).loc main_arg1) : S512x2048.Idx → Elt F .f32) transposes_S512x2048_S2048x512_1_0 := by
  show StableHlo.after hostOps0 (fun b => m (c, b)) (Proc.devRef .tc main_v0) = _
  after_results

theorem V_w2t (c : Dev nD) :
    (V m c main_v1 : S512x32.Idx → Elt F .f32)
      = transpose S512x32 [1, 0] (m ((c : Thread nD τ).loc main_arg3) : S32x512.Idx → Elt F .f32) transposes_S32x512_S512x32_1_0 := by
  show StableHlo.after hostOps0 (fun b => m (c, b)) (Proc.devRef .tc main_v1) = _
  after_results

theorem V_b1row (c : Dev nD) :
    (V m c main_v2 : S1x512.Idx → Elt F .f32)
      = shapeCast S1x512 (m ((c : Thread nD τ).loc main_arg2) : S512.Idx → Elt F .f32) shapeCasts_S512_S1x512 := by
  show StableHlo.after hostOps0 (fun b => m (c, b)) (Proc.devRef .tc main_v2) = _
  after_results
  rfl

theorem V_b2row (c : Dev nD) :
    (V m c main_v3 : S1x32.Idx → Elt F .f32)
      = shapeCast S1x32 (m ((c : Thread nD τ).loc main_arg4) : S32.Idx → Elt F .f32) shapeCasts_S32_S1x32 := by
  show StableHlo.after hostOps0 (fun b => m (c, b)) (Proc.devRef .tc main_v3) = _
  after_results
  rfl

theorem V_memcat (c : Dev nD) :
    (V m c main_v6 : S32x4096.Idx → Elt F .f32)
      = concatenate S32x4096 1
          [⟨S32x2048, transpose S32x2048 [1, 0] (m ((c : Thread nD τ).loc main_arg5) : S2048x32.Idx → Elt F .f32) transposes_S2048x32_S32x2048_1_0⟩,
           ⟨S32x2048, transpose S32x2048 [1, 0] (m ((c : Thread nD τ).loc main_arg6) : S2048x32.Idx → Elt F .f32) transposes_S2048x32_S32x2048_1_0⟩]
          concatenates_S32x2048_S32x2048_S32x4096_d1 := by
  show StableHlo.after hostOps0 (fun b => m (c, b)) (Proc.devRef .tc main_v6) = _
  after_results

/-! ## The same, entry by entry -/

/-- `W1ᵀ[k, q] = W1[q, k]`. -/
theorem w1t_apply (c : Dev nD) (k : Fin 2048) (q : Fin 512) :
    (V m c main_v0 : S2048x512.Idx → Elt F .f32) (ix2 k q)
      = (m ((c : Thread nD τ).loc main_arg1) : S512x2048.Idx → Elt F .f32) (ix2 q k) := by
  rw [V_w1t]
  exact transpose_apply [1, 0] _ transposes_S512x2048_S2048x512_1_0 (ix2 k q) (ix2 q k) (fun b => match b with
    | ⟨0, _⟩ => rfl
    | ⟨1, _⟩ => rfl)

/-- `W2ᵀ[q, r] = W2[r, q]`. -/
theorem w2t_apply (c : Dev nD) (q : Fin 512) (r : Fin 32) :
    (V m c main_v1 : S512x32.Idx → Elt F .f32) (ix2 q r)
      = (m ((c : Thread nD τ).loc main_arg3) : S32x512.Idx → Elt F .f32) (ix2 r q) := by
  rw [V_w2t]
  exact transpose_apply [1, 0] _ transposes_S32x512_S512x32_1_0 (ix2 q r) (ix2 r q) (fun b => match b with
    | ⟨0, _⟩ => rfl
    | ⟨1, _⟩ => rfl)

/-- The first bias as a one-row matrix: `b1row[0, q] = b1[q]`. -/
theorem b1row_apply (c : Dev nD) (q : Fin 512) :
    (V m c main_v2 : S1x512.Idx → Elt F .f32) (ix2 (0 : Fin 1) q)
      = (m ((c : Thread nD τ).loc main_arg2) : S512.Idx → Elt F .f32) (ix1 q) := by
  rw [V_b1row]
  refine (shapeCast_addUnit_apply ![512] _ shapeCasts_S512_S1x512 (ix2 (0 : Fin 1) q)).trans ?_
  exact congrArg _ (funext fun a => match a with | ⟨0, _⟩ => rfl)

/-- The second bias as a one-row matrix: `b2row[0, r] = b2[r]`. -/
theorem b2row_apply (c : Dev nD) (r : Fin 32) :
    (V m c main_v3 : S1x32.Idx → Elt F .f32) (ix2 (0 : Fin 1) r)
      = (m ((c : Thread nD τ).loc main_arg4) : S32.Idx → Elt F .f32) (ix1 r) := by
  rw [V_b2row]
  refine (shapeCast_addUnit_apply ![32] _ shapeCasts_S32_S1x32 (ix2 (0 : Fin 1) r)).trans ?_
  exact congrArg _ (funext fun a => match a with | ⟨0, _⟩ => rfl)

/-- The left half of the side-by-side tables is the first table transposed: `memcat[r, j] = A[j, r]`. -/
theorem memcat_left (c : Dev nD) (r : Fin 32) (j : Fin 2048) :
    (V m c main_v6 : S32x4096.Idx → Elt F .f32) (ix2 r (⟨j.val, by have := j.isLt; omega⟩ : Fin 4096))
      = (m ((c : Thread nD τ).loc main_arg5) : S2048x32.Idx → Elt F .f32) (ix2 j r) := by
  rw [V_memcat]
  refine (concatenate_pair_apply_left (s₁ := S32x2048) (s₂ := S32x2048) (1 : Fin 2) _ _ concatenates_S32x2048_S32x2048_S32x4096_d1
    (ix2 r (⟨j.val, by have := j.isLt; omega⟩ : Fin 4096)) rfl (ix2 r j) (fun b => match b with
      | ⟨0, _⟩ => rfl
      | ⟨1, _⟩ => rfl)).trans ?_
  exact transpose_apply [1, 0] _ transposes_S2048x32_S32x2048_1_0 (ix2 r j) (ix2 j r) (fun b => match b with
    | ⟨0, _⟩ => rfl
    | ⟨1, _⟩ => rfl)

/-- The right half is the second table transposed: `memcat[r, 2048 + j] = N[j, r]`. -/
theorem memcat_right (c : Dev nD) (r : Fin 32) (j : Fin 2048) :
    (V m c main_v6 : S32x4096.Idx → Elt F .f32) (ix2 r (⟨2048 + j.val, by have := j.isLt; omega⟩ : Fin 4096))
      = (m ((c : Thread nD τ).loc main_arg6) : S2048x32.Idx → Elt F .f32) (ix2 j r) := by
  rw [V_memcat]
  refine (concatenate_pair_apply_right (s₁ := S32x2048) (s₂ := S32x2048) (1 : Fin 2) _ _ concatenates_S32x2048_S32x2048_S32x4096_d1
    (ix2 r (⟨2048 + j.val, by have := j.isLt; omega⟩ : Fin 4096)) rfl rfl (ix2 r j) (fun b hb => match b, hb with
      | ⟨0, _⟩, _ => rfl
      | ⟨1, _⟩, hb => absurd rfl hb) (by show j.val + 2048 = 2048 + j.val; omega)).trans ?_
  exact transpose_apply [1, 0] _ transposes_S2048x32_S32x2048_1_0 (ix2 r j) (ix2 j r) (fun b => match b with
    | ⟨0, _⟩ => rfl
    | ⟨1, _⟩ => rfl)

end Cert.KernelIdeal.Staged

end
-- ==== Proof.BlockScore.lean ====
/-
  The kernel body's arithmetic, read at a row of its output block, is the specification's score of that row of its
  block of `x`.

  From a block `xb` of 512 rows of `x`, the transposed weight matrices `w1t` [2048, 512] and `w2t` [512, 32], the biases as
  one-row matrices `b1r` [1, 512] and `b2r` [1, 32], and the two memory tables transposed and laid side by side
  `mc` [32, 4096] (columns 0 … 2047 the first table's rows, columns 2048 … 4095 the second's), the body computes
    hiddenBlk = max (xb · w1t + b1r) 0          [512, 512]
    featBlk   = hiddenBlk · w2t + b2r           [512, 32]
    scoreBlk  = featBlk · mc                    [512, 4096]
  then, for each row, the maximum (from −∞) of each half of `scoreBlk`'s row, each times 2⁻⁵, their difference, and the
  logistic. Over the extended reals the narrowing casts on the way into each product are the identity, so each product
  read at `(p, q)` is the plain sum over the contracted axis; the sums, the maxima and the pointwise operations are then,
  term for term and in the same order, those of `Cert.MemoryScore.rowScore` on row `p` of `xb`. No algebraic law of the
  extended reals is used: only the re-indexing of each layout operation (a matmul's contraction index, a one-row
  broadcast, a column slice, a row reduction, a keepdims column cast).
-/
import proofs.«148672_j77910706749781_2_alg».proof.Proof.Gen.KernelIdeal.Skeleton
import proofs.«148672_j77910706749781_2_alg».proof.Proof.Score
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open Idealize.ShloMosaic Idealize.ShloMosaic.ValueIdx

namespace Cert.KernelIdeal.BlockValue

open Cert.KernelIdeal Cert.KernelIdeal.Gen

/-! ## Layout operations read at an index -/

/-- A plain `[M,K]·[K,N]` `tpu.matmul` (contract the left operand's axis 1 with the right operand's axis 0, no batch
    axis) into the zero accumulator, read at `(p, q)`: the sum over `k` of `l (p, k) * r (k, q)`. -/
theorem matmul_plain_apply {M K N : Nat} {φ₁ φ₂ : FTy}
    (wf : DotDims.WF ⟨2, ![M, K]⟩ ⟨2, ![K, N]⟩ ⟨2, ![M, N]⟩ [1] [0] [0] [1] [] [])
    (l : FVec Ideal ⟨2, ![M, K]⟩ φ₁) (r : FVec Ideal ⟨2, ![K, N]⟩ φ₂) (p : Fin M) (q : Fin N) :
    FloatOps.matmul (⟨[1], [0], [0], [1], [], [], wf⟩ : DotDims ⟨2, ![M, K]⟩ ⟨2, ![K, N]⟩ ⟨2, ![M, N]⟩) none l r
        (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  generalize (contrEquiv1 (⟨[1], [0], [0], [1], [], [], wf⟩ : DotDims ⟨2, ![M, K]⟩ ⟨2, ![K, N]⟩ ⟨2, ![M, N]⟩) K rfl rfl).symm k = c at hk ⊢
  have el : (⟨[1], [0], [0], [1], [], [], wf⟩ : DotDims ⟨2, ![M, K]⟩ ⟨2, ![K, N]⟩ ⟨2, ![M, N]⟩).lhsIdx (ix2 p q) c = ix2 p k :=
    funext fun a => Fin.ext (by
      match a with
      | ⟨0, _⟩ => rfl
      | ⟨1, _⟩ => exact (DotDims.lhsIdx_val_of_single _ rfl (ix2 p q) c).trans hk)
  have er : (⟨[1], [0], [0], [1], [], [], wf⟩ : DotDims ⟨2, ![M, K]⟩ ⟨2, ![K, N]⟩ ⟨2, ![M, N]⟩).rhsIdx (ix2 p q) c = ix2 k q :=
    funext fun a => Fin.ext (by
      match a with
      | ⟨0, _⟩ => exact (DotDims.rhsIdx_val_of_single _ rfl (ix2 p q) c).trans hk
      | ⟨1, _⟩ => rfl)
  rw [el, er]

/-- A keepdims column cast: a `[a]` vector viewed as `[a, 1]` reads, at `(p, 0)`, the vector at `p`. -/
theorem shapeCast_col_apply {a : Nat} {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A row maximum: the `maximumf` reduction of an `[a, b]` array over its axis 1, read at row `p`, is the fold of `max`
    from the accumulator's value over the row's `b` entries. -/
theorem rowMax_apply {a b : Nat} (s : FVec Ideal ⟨2, ![a, b]⟩ .f32) (w : BitVec 32)
    (h : (⟨2, ![a, b]⟩ : Shape).Reduces [1] ⟨1, ![a]⟩) (hφ : FKind.Formats .f32)
    (hacc : w = FKind.maximumf.neutral .f32 hφ) (p : Fin a) :
    multiReduction (F := Ideal) .maximumf [1] ⟨1, ![a]⟩ s w h hφ hacc (ix1 p)
      = (Finset.univ : Finset (Fin b)).fold max (Ideal.ofBits .f32 w) (fun j => s (ix2 p j)) := by
  refine (Ideal.multiReduction_maximumf_single s w h hφ hacc (ix1 p)).trans ?_
  refine Finset.fold_congr fun j _ => congrArg s (funext fun c => Fin.ext ?_)
  match c with
  | ⟨0, _⟩ => rfl
  | ⟨1, _⟩ => rfl

/-! ## The kernel's three products, as arrays over one block of rows -/

/-- The hidden units of a block of 512 rows as the kernel computes them: the relu of the block's product with the
    transposed first weight matrix plus the bias row. -/
def hiddenBlk (xb : Vec Ideal S512x2048 .f32) (w1t : Vec Ideal S2048x512 .f32) (b1r : Vec Ideal S1x512 .f32) :
    FVec Ideal S512x512 .f32 :=
  maximumf
    (addf
      (matmul dot_S512x2048_S2048x512_S512x512_1_0_0_1_n_n none (truncf .bf16 xb bitsLt_bf16_f32)
        (truncf .bf16 (shapeCast S2048x512 w1t shapeCasts_S2048x512_S2048x512) bitsLt_bf16_f32)
        (constant (F := Ideal) S512x512 .f32 0x00000000#32))
      (broadcastTo S512x512 (shapeCast S1x512 b1r shapeCasts_S1x512_S1x512) broadcasts_S1x512_S512x512))
    (broadcast S512x512 (Scalar.ofBits (F := Ideal) .f32 0x00000000#32))

/-- The features of the block: the hidden units' product with the transposed second weight matrix plus the bias row. -/
def featBlk (xb : Vec Ideal S512x2048 .f32) (w1t : Vec Ideal S2048x512 .f32) (b1r : Vec Ideal S1x512 .f32)
    (w2t : Vec Ideal S512x32 .f32) (b2r : Vec Ideal S1x32 .f32) : FVec Ideal S512x32 .f32 :=
  addf
    (matmul dot_S512x512_S512x32_S512x32_1_0_0_1_n_n none (truncf .bf16 (hiddenBlk xb w1t b1r) bitsLt_bf16_f32)
      (truncf .bf16 (shapeCast S512x32 w2t shapeCasts_S512x32_S512x32) bitsLt_bf16_f32)
      (constant (F := Ideal) S512x32 .f32 0x00000000#32))
    (broadcastTo S512x32 (shapeCast S1x32 b2r shapeCasts_S1x32_S1x32) broadcasts_S1x32_S512x32)

/-- The block's inner products with every column of the two memory tables laid side by side. -/
def scoreBlk (xb : Vec Ideal S512x2048 .f32) (w1t : Vec Ideal S2048x512 .f32) (b1r : Vec Ideal S1x512 .f32)
    (w2t : Vec Ideal S512x32 .f32) (b2r : Vec Ideal S1x32 .f32) (mc : Vec Ideal S32x4096 .f32) : FVec Ideal S512x4096 .f32 :=
  matmul dot_S512x32_S32x4096_S512x4096_1_0_0_1_n_n none (truncf .bf16 (featBlk xb w1t b1r w2t b2r) bitsLt_bf16_f32)
    (truncf .bf16 (shapeCast S32x4096 mc shapeCasts_S32x4096_S32x4096) bitsLt_bf16_f32)
    (constant (F := Ideal) S512x4096 .f32 0x00000000#32)

/-- The kernel's payload is the logistic of the scaled difference of the two halves' row maxima of `scoreBlk`. -/
theorem pay_eq (xb : Vec Ideal S512x2048 .f32) (w1t : Vec Ideal S2048x512 .f32) (b1r : Vec Ideal S1x512 .f32)
    (w2t : Vec Ideal S512x32 .f32) (b2r : Vec Ideal S1x32 .f32) (mc : Vec Ideal S32x4096 .f32) :
    k0_pay1 (F := Ideal) xb w1t b1r w2t b2r mc
      = logistic
          (subf
            (mulf
              (shapeCast S512x1
                (multiReduction (F := Ideal) .maximumf [1] S512
                  (extractStridedSlice S512x2048 ![0, 0] (scoreBlk xb w1t b1r w2t b2r mc) slices_S512x4096_o0_0_S512x2048)
                  0xFF800000#32 reduces_S512x2048_S512 (.inl rfl) rfl)
                shapeCasts_S512_S512x1)
              (broadcast S512x1 (Scalar.ofBits (F := Ideal) .f32 0x3D000000#32)))
            (mulf
              (shapeCast S512x1
                (multiReduction (F := Ideal) .maximumf [1] S512
                  (extractStridedSlice S512x2048 ![0, 2048] (scoreBlk xb w1t b1r w2t b2r mc) slices_S512x4096_o0_2048_S512x2048)
                  0xFF800000#32 reduces_S512x2048_S512 (.inl rfl) rfl)
                shapeCasts_S512_S512x1)
              (broadcast S512x1 (Scalar.ofBits (F := Ideal) .f32 0x3D000000#32)))) := rfl

/-! ## The three products read at an index -/

section Read

variable (xb : Vec Ideal S512x2048 .f32) (w1t : Vec Ideal S2048x512 .f32) (b1r : Vec Ideal S1x512 .f32)
  (w2t : Vec Ideal S512x32 .f32) (b2r : Vec Ideal S1x32 .f32) (mc : Vec Ideal S32x4096 .f32)
  (W1 : FVec Ideal ⟨2, ![512, 2048]⟩ .f32) (b1 : FVec Ideal ⟨1, ![512]⟩ .f32)
  (W2 : FVec Ideal ⟨2, ![32, 512]⟩ .f32) (b2 : FVec Ideal ⟨1, ![32]⟩ .f32) (am nm : FVec Ideal ⟨2, ![2048, 32]⟩ .f32)

/-- Hidden unit `q` of row `p` of the block is the specification's hidden unit `q` of that row. -/
theorem hiddenBlk_apply (hw1 : ∀ (k : Fin 2048) (q : Fin 512), w1t (ix2 k q) = W1 (ix2 q k))
    (hb1 : ∀ q : Fin 512, b1r (ix2 (0 : Fin 1) q) = b1 (ix1 q)) (p q : Fin 512) :
    hiddenBlk xb w1t b1r (ix2 p q) = Cert.MemoryScore.hidden W1 b1 (fun k => xb (ix2 p k)) q := by
  unfold hiddenBlk Cert.MemoryScore.hidden
  rw [shapeCast_self, shapeCast_self]
  refine (maximumf_apply _ _ _).trans (congrArg₂ max ?_ rfl)
  refine (addf_apply _ _ _).trans (congrArg₂ (· + ·) ?_ ?_)
  · refine (matmul_plain_apply _ _ _ p q).trans ?_
    exact Finset.sum_congr rfl fun k _ => congrArg₂ (· * ·) rfl (hw1 k q)
  · exact (broadcastTo_1b_ab_apply b1r _ p q).trans (hb1 q)

/-- Feature `r` of row `p` of the block is the specification's feature `r` of that row. -/
theorem featBlk_apply (hw1 : ∀ (k : Fin 2048) (q : Fin 512), w1t (ix2 k q) = W1 (ix2 q k))
    (hb1 : ∀ q : Fin 512, b1r (ix2 (0 : Fin 1) q) = b1 (ix1 q))
    (hw2 : ∀ (q : Fin 512) (r : Fin 32), w2t (ix2 q r) = W2 (ix2 r q))
    (hb2 : ∀ r : Fin 32, b2r (ix2 (0 : Fin 1) r) = b2 (ix1 r)) (p : Fin 512) (r : Fin 32) :
    featBlk xb w1t b1r w2t b2r (ix2 p r) = Cert.MemoryScore.feature W1 b1 W2 b2 (fun k => xb (ix2 p k)) r := by
  unfold featBlk Cert.MemoryScore.feature
  rw [shapeCast_self, shapeCast_self]
  refine (addf_apply _ _ _).trans (congrArg₂ (· + ·) ?_ ?_)
  · refine (matmul_plain_apply _ _ _ p r).trans ?_
    exact Finset.sum_congr rfl fun q _ => congrArg₂ (· * ·) (hiddenBlk_apply xb w1t b1r W1 b1 hw1 hb1 p q) (hw2 q r)
  · exact (broadcastTo_1b_ab_apply b2r _ p r).trans (hb2 r)

/-- Entry `(p, j)` of the block's products with the tables' columns: row `p`'s features against column `j`. -/
theorem scoreBlk_apply (hw1 : ∀ (k : Fin 2048) (q : Fin 512), w1t (ix2 k q) = W1 (ix2 q k))
    (hb1 : ∀ q : Fin 512, b1r (ix2 (0 : Fin 1) q) = b1 (ix1 q))
    (hw2 : ∀ (q : Fin 512) (r : Fin 32), w2t (ix2 q r) = W2 (ix2 r q))
    (hb2 : ∀ r : Fin 32, b2r (ix2 (0 : Fin 1) r) = b2 (ix1 r)) (p : Fin 512) (j : Fin 4096) :
    scoreBlk xb w1t b1r w2t b2r mc (ix2 p j)
      = ∑ r : Fin 32, Cert.MemoryScore.feature W1 b1 W2 b2 (fun k => xb (ix2 p k)) r * mc (ix2 r j) := by
  unfold scoreBlk
  rw [shapeCast_self]
  refine (matmul_plain_apply _ _ _ p j).trans ?_
  exact Finset.sum_congr rfl fun r _ => congrArg₂ (· * ·) (featBlk_apply xb w1t b1r w2t b2r W1 b1 W2 b2 hw1 hb1 hw2 hb2 p r) rfl

end Read

/-! ## The row maxima over the two tables, and the payload -/

/-- The pointwise tail of the payload: scale both maxima, subtract, take the logistic. -/
theorem tail_apply (A N : FVec Ideal S512x1 .f32) (c : Ideal .f32) (i : S512x1.Idx) :
    logistic (subf (mulf A (broadcast S512x1 c)) (mulf N (broadcast S512x1 c))) i = Ideal.logistic (A i * c - N i * c) := rfl

section Best

variable (xb : Vec Ideal S512x2048 .f32) (w1t : Vec Ideal S2048x512 .f32) (b1r : Vec Ideal S1x512 .f32)
  (w2t : Vec Ideal S512x32 .f32) (b2r : Vec Ideal S1x32 .f32) (mc : Vec Ideal S32x4096 .f32)
  (W1 : FVec Ideal ⟨2, ![512, 2048]⟩ .f32) (b1 : FVec Ideal ⟨1, ![512]⟩ .f32)
  (W2 : FVec Ideal ⟨2, ![32, 512]⟩ .f32) (b2 : FVec Ideal ⟨1, ![32]⟩ .f32) (am nm : FVec Ideal ⟨2, ![2048, 32]⟩ .f32)
  (hw1 : ∀ (k : Fin 2048) (q : Fin 512), w1t (ix2 k q) = W1 (ix2 q k))
  (hb1 : ∀ q : Fin 512, b1r (ix2 (0 : Fin 1) q) = b1 (ix1 q))
  (hw2 : ∀ (q : Fin 512) (r : Fin 32), w2t (ix2 q r) = W2 (ix2 r q))
  (hb2 : ∀ r : Fin 32, b2r (ix2 (0 : Fin 1) r) = b2 (ix1 r))

include hw1 hb1 hw2 hb2

/-- Row `p`'s maximum over the left half of the products (columns `0 … 2047`, the first table's rows) is the
    specification's best match of the row's features in the first table. -/
theorem bestA_apply (ham : ∀ (r : Fin 32) (j : Fin 2048), mc (ix2 r (⟨j.val, by omega⟩ : Fin 4096)) = am (ix2 j r))
    (p : Fin 512) :
    multiReduction (F := Ideal) .maximumf [1] S512
        (extractStridedSlice S512x2048 ![0, 0] (scoreBlk xb w1t b1r w2t b2r mc) slices_S512x4096_o0_0_S512x2048)
        0xFF800000#32 reduces_S512x2048_S512 (.inl rfl) rfl (ix1 p)
      = Cert.MemoryScore.best am (Cert.MemoryScore.feature W1 b1 W2 b2 (fun k => xb (ix2 p k))) := by
  refine (rowMax_apply _ _ _ _ _ p).trans ?_
  unfold Cert.MemoryScore.best
  refine Finset.fold_congr fun j _ => ?_
  refine (slice2_axis1_apply 0 _ _ p j (⟨j.val, by omega⟩ : Fin 4096) (Nat.zero_add _).symm).trans ?_
  refine (scoreBlk_apply xb w1t b1r w2t b2r mc W1 b1 W2 b2 hw1 hb1 hw2 hb2 p _).trans ?_
  exact Finset.sum_congr rfl fun r _ => congrArg₂ (· * ·) rfl (ham r j)

/-- Row `p`'s maximum over the right half (columns `2048 … 4095`, the second table's rows) is the best match in the
    second table. -/
theorem bestN_apply (hnm : ∀ (r : Fin 32) (j : Fin 2048), mc (ix2 r (⟨2048 + j.val, by omega⟩ : Fin 4096)) = nm (ix2 j r))
    (p : Fin 512) :
    multiReduction (F := Ideal) .maximumf [1] S512
        (extractStridedSlice S512x2048 ![0, 2048] (scoreBlk xb w1t b1r w2t b2r mc) slices_S512x4096_o0_2048_S512x2048)
        0xFF800000#32 reduces_S512x2048_S512 (.inl rfl) rfl (ix1 p)
      = Cert.MemoryScore.best nm (Cert.MemoryScore.feature W1 b1 W2 b2 (fun k => xb (ix2 p k))) := by
  refine (rowMax_apply _ _ _ _ _ p).trans ?_
  unfold Cert.MemoryScore.best
  refine Finset.fold_congr fun j _ => ?_
  refine (slice2_axis1_apply 2048 _ _ p j (⟨2048 + j.val, by omega⟩ : Fin 4096) rfl).trans ?_
  refine (scoreBlk_apply xb w1t b1r w2t b2r mc W1 b1 W2 b2 hw1 hb1 hw2 hb2 p _).trans ?_
  exact Finset.sum_congr rfl fun r _ => congrArg₂ (· * ·) rfl (hnm r j)

/-- THE BLOCK'S VALUE: the kernel body's arithmetic, read at row `p` of its output block, is the specification's score
    of row `p` of its block of `x`. The hypotheses say what the six loaded blocks hold: the weight matrices transposed,
    the biases as one-row matrices, and the two memory tables transposed and laid side by side. -/
theorem pay_apply
    (ham : ∀ (r : Fin 32) (j : Fin 2048), mc (ix2 r (⟨j.val, by omega⟩ : Fin 4096)) = am (ix2 j r))
    (hnm : ∀ (r : Fin 32) (j : Fin 2048), mc (ix2 r (⟨2048 + j.val, by omega⟩ : Fin 4096)) = nm (ix2 j r))
    (p : Fin 512) :
    k0_pay1 (F := Ideal) xb w1t b1r w2t b2r mc (ix2 p (0 : Fin 1))
      = Cert.MemoryScore.rowScore W1 b1 W2 b2 am nm (fun k => xb (ix2 p k)) := by
  refine (congrFun (pay_eq xb w1t b1r w2t b2r mc) (ix2 p (0 : Fin 1))).trans ?_
  refine (tail_apply _ _ _ _).trans ?_
  unfold Cert.MemoryScore.rowScore
  refine congrArg Ideal.logistic (congrArg₂ (· - ·) (congrArg₂ (· * ·) ?_ rfl) (congrArg₂ (· * ·) ?_ rfl))
  · exact (shapeCast_col_apply _ _ p).trans (bestA_apply xb w1t b1r w2t b2r mc W1 b1 W2 b2 am hw1 hb1 hw2 hb2 ham p)
  · exact (shapeCast_col_apply _ _ p).trans (bestN_apply xb w1t b1r w2t b2r mc W1 b1 W2 b2 nm hw1 hb1 hw2 hb2 hnm p)

end Best

end Cert.KernelIdeal.BlockValue
end
-- ==== Proof.KernelScore.lean ====
/-
  The kernel program's result, read off its run.

  The pallas_call runs over 32 grid points.  At point `t` the body sees rows `512 t … 512 t + 511` of `x` and, whole,
  the five small operands the host lines laid out (`W1ᵀ`, `W2ᵀ`, the two bias rows, the two memory tables side by side),
  and stores one column of 512 numbers: row `p` of it is the score of row `512 t + p` of `x` (the body's arithmetic read
  at a row, against the operands read entry by entry).  Point `t` writes that column back as rows `512 t … 512 t + 511` of
  the [16384, 1] output; every row `i` is covered, by point `i / 512`; so after the call the output is the column of
  scores, and the one host line after the call flattens it to the [16384] result.
-/
import proofs.«148672_j77910706749781_2_alg».proof.Proof.Gen.KernelIdeal.Frame
import proofs.«148672_j77910706749781_2_alg».proof.Proof.Staged
import proofs.«148672_j77910706749781_2_alg».proof.Proof.Score
import proofs.«148672_j77910706749781_2_alg».proof.Proof.BlockScore
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Whole

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the x window and the output window sit at row block `t`, every other
    window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := by
  have h1 := t.isLt
  have h2 : cfg0.N = 32 := N_0
  omega

/-- Row `p` of the x block at point `t` is row `512 t + p` of `x`. -/
theorem xblk_apply (c : Dev nD) (t : Fin cfg0.N) (p : Fin 512) (k : Fin 2048) :
    (iblk m c 0 t : S512x2048.Idx → Elt Ideal .f32) (ix2 p k)
      = (m ((c : Thread nD τ).loc main_arg0) : S16384x2048.Idx → Elt Ideal .f32)
          (ix2 (⟨512 * t.val + p.val, by have := t_lt t; have := p.isLt; omega⟩ : Fin 16384) k) := by
  obtain ⟨e0, e1, -⟩ := idx_facts t
  unfold iblk
  rw [View.read_apply]
  refine (congrFun (V_main_arg0 m c) _).trans ?_
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- The other five windows hold their whole arrays at every point. -/
theorem w1blk_apply (c : Dev nD) (t : Fin cfg0.N) (k : Fin 2048) (q : Fin 512) :
    (iblk m c 1 t : S2048x512.Idx → Elt Ideal .f32) (ix2 k q)
      = (m ((c : Thread nD τ).loc main_arg1) : S512x2048.Idx → Elt Ideal .f32) (ix2 q k) := by
  obtain ⟨-, -, e0, e1, -⟩ := idx_facts t
  unfold iblk
  rw [View.read_apply]
  refine Eq.trans ?_ (Staged.w1t_apply m c k q)
  show V m c main_v0 _ = V m c main_v0 _
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 512 + 1 * q.val = q.val; rw [e1]; omega

theorem b1blk_apply (c : Dev nD) (t : Fin cfg0.N) (q : Fin 512) :
    (iblk m c 2 t : S1x512.Idx → Elt Ideal .f32) (ix2 (0 : Fin 1) q)
      = (m ((c : Thread nD τ).loc main_arg2) : S512.Idx → Elt Ideal .f32) (ix1 q) := by
  obtain ⟨-, -, -, -, e0, e1, -⟩ := idx_facts t
  unfold iblk
  rw [View.read_apply]
  refine Eq.trans ?_ (Staged.b1row_apply m c q)
  show V m c main_v2 _ = V m c main_v2 _
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * q.val = q.val; rw [e1]; omega

theorem w2blk_apply (c : Dev nD) (t : Fin cfg0.N) (q : Fin 512) (r : Fin 32) :
    (iblk m c 3 t : S512x32.Idx → Elt Ideal .f32) (ix2 q r)
      = (m ((c : Thread nD τ).loc main_arg3) : S32x512.Idx → Elt Ideal .f32) (ix2 r q) := by
  obtain ⟨-, -, -, -, -, -, e0, e1, -⟩ := idx_facts t
  unfold iblk
  rw [View.read_apply]
  refine Eq.trans ?_ (Staged.w2t_apply m c q r)
  show V m c main_v1 _ = V m c main_v1 _
  refine congrArg _ (funext fun a => Fin.ext ?_)
  match a with
  | ⟨0, _⟩ => show win0_3.index t (0 : Fin 2) * 512 + 1 * q.val = q.val; rw [e0]; omega
  | ⟨1, _⟩ => show win0_3.index t (1 : Fin 2) * 32 + 1 * r.val = r.val; rw [e1]; omega

theorem b2blk_apply (c : Dev nD) (t : Fin cfg0.N) (r : Fin 32) :
    (iblk m c 4 t : S1x32.Idx → Elt Ideal .f32) (ix2 (0 : Fin 1) r)
      = (m ((c : Thread nD τ).loc main_arg4) : S32.Idx → Elt Ideal .f32) (ix1 r) := by
  obtain ⟨-, -, -, -, -, -, -, -, e0, e1, -⟩ := idx_facts t
  unfold iblk
  rw [View.read_apply]
  refine Eq.trans ?_ (Staged.b2row_apply m c r)
  show V m c main_v3 _ = V m c main_v3 _
  refine congrArg _ (funext fun a => Fin.ext ?_)
  match a with
  | ⟨0, _⟩ => show win0_4.index t (0 : Fin 2) * 1 + 1 * 0 = 0; rw [e0]
  | ⟨1, _⟩ => show win0_4.index t (1 : Fin 2) * 32 + 1 * r.val = r.val; rw [e1]; omega

theorem amblk_apply (c : Dev nD) (t : Fin cfg0.N) (r : Fin 32) (j : Fin 2048) :
    (iblk m c 5 t : S32x4096.Idx → Elt Ideal .f32) (ix2 r (⟨j.val, by have := j.isLt; omega⟩ : Fin 4096))
      = (m ((c : Thread nD τ).loc main_arg5) : S2048x32.Idx → Elt Ideal .f32) (ix2 j r) := by
  obtain ⟨-, -, -, -, -, -, -, -, -, -, e0, e1, -⟩ := idx_facts t
  unfold iblk
  rw [View.read_apply]
  refine Eq.trans ?_ (Staged.memcat_left m c r j)
  show V m c main_v6 _ = V m c main_v6 _
  refine congrArg _ (funext fun a => Fin.ext ?_)
  match a with
  | ⟨0, _⟩ => show win0_5.index t (0 : Fin 2) * 32 + 1 * r.val = r.val; rw [e0]; omega
  | ⟨1, _⟩ => show win0_5.index t (1 : Fin 2) * 4096 + 1 * j.val = j.val; rw [e1]; omega

theorem nmblk_apply (c : Dev nD) (t : Fin cfg0.N) (r : Fin 32) (j : Fin 2048) :
    (iblk m c 5 t : S32x4096.Idx → Elt Ideal .f32) (ix2 r (⟨2048 + j.val, by have := j.isLt; omega⟩ : Fin 4096))
      = (m ((c : Thread nD τ).loc main_arg6) : S2048x32.Idx → Elt Ideal .f32) (ix2 j r) := by
  obtain ⟨-, -, -, -, -, -, -, -, -, -, e0, e1, -⟩ := idx_facts t
  unfold iblk
  rw [View.read_apply]
  refine Eq.trans ?_ (Staged.memcat_right m c r j)
  show V m c main_v6 _ = V m c main_v6 _
  refine congrArg _ (funext fun a => Fin.ext ?_)
  match a with
  | ⟨0, _⟩ => show win0_5.index t (0 : Fin 2) * 32 + 1 * r.val = r.val; rw [e0]; omega
  | ⟨1, _⟩ => show win0_5.index t (1 : Fin 2) * 4096 + 1 * (2048 + j.val) = 2048 + j.val; rw [e1]; omega

/-- The column of scores of the argument arrays: what the output array is to hold. -/
abbrev Gc (c : Dev nD) : S16384x1.Idx → Elt Ideal .f32 :=
  Cert.MemoryScore.Gcol (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What point `t` writes back is rows `512 t … 512 t + 511` of the column of scores. -/
theorem flushed_eq (c : Dev nD) (t : Fin cfg0.N) :
    (dats m 0 c).flushed 6 t = ((cfg0.win 6).blk t).view.read (Elt Ideal) (Gc m c) := by
  show (cfg0.win 6).cut (grid0.coords t) ((dats m 0 c).after 6 t) = _
  rw [after0_6]
  unfold out0_6
  rw [View.canon_unit_zero hz]
  simp only [View.ld_unit_zero (S := S512x2048) hz, View.ld_unit_zero (S := S2048x512) hz, View.ld_unit_zero (S := S1x512) hz,
    View.ld_unit_zero (S := S512x32) hz, View.ld_unit_zero (S := S1x32) hz, View.ld_unit_zero (S := S32x4096) hz]
  funext y
  obtain ⟨p, z, rfl⟩ : ∃ (p : Fin 512) (z : Fin 1), (y : S512x1.Idx) = ix2 p z := ⟨y 0, y 1, eq_ix2 y⟩
  obtain rfl : z = 0 := Subsingleton.elim _ _
  show k0_pay1 (iblk m c 0 t) (iblk m c 1 t) (iblk m c 2 t) (iblk m c 3 t) (iblk m c 4 t) (iblk m c 5 t) (ix2 p (0 : Fin 1))
    = Gc m c (((cfg0.win 6).blk t).view.emb (ix2 p (0 : Fin 1)))
  refine (BlockValue.pay_apply (iblk m c 0 t) (iblk m c 1 t) (iblk m c 2 t) (iblk m c 3 t) (iblk m c 4 t) (iblk m c 5 t)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (w1blk_apply m c t) (b1blk_apply m c t) (w2blk_apply m c t) (b2blk_apply m c t) (amblk_apply m c t) (nmblk_apply m c t) p).trans ?_
  obtain ⟨-, -, -, -, -, -, -, -, -, -, -, -, e0, e1⟩ := idx_facts t
  show _ = Cert.MemoryScore.rowScore _ _ _ _ _ _ _
  refine congrArg _ (funext fun k => ?_)
  rw [xblk_apply]
  refine congrArg _ (funext fun a => Fin.ext ?_)
  match a with
  | ⟨0, _⟩ => show 512 * t.val + p.val = win0_6.index t (0 : Fin 2) * 512 + 1 * p.val; rw [e0]; omega
  | ⟨1, _⟩ => rfl

/-- An index of the output array is in point `t`'s block iff each coordinate is in the block's range on its axis. -/
theorem mem_blk (t : Fin cfg0.N) (i : S16384x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v7).slice (win0_6.rect t)).set ↔ _
  rw [View.set_slice_whole, Rect.mem_set_unit]
  exact Iff.rfl

/-- Row `i` of the output is written back by point `i / 512`. -/
theorem cover (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 32 := N_0
  refine ⟨⟨(i 0).val / 512, by omega⟩, flush0_6 _, ?_⟩
  rw [mem_blk]
  obtain ⟨-, -, -, -, -, -, -, -, -, -, -, -, e0, e1⟩ := idx_facts ⟨(i 0).val / 512, by omega⟩
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 1 ≤ (i 1).val ∧ (i 1).val < win0_6.index _ (1 : Fin 2) * 1 + 1
    rw [e1]; omega

/-- So after the run the output array is the column of scores. -/
theorem final (c : Dev nD) : (dats m 0 c).arrAt 6 cfg0.N = Gc m c :=
  (dats m 0 c).arrAt_eq_of_cover 6 (Gc m c) (fun t _ => flushed_eq m c t) cover

/-- The scores of the argument arrays, as the flat vector the program returns. -/
abbrev Gr (c : Dev nD) : S16384.Idx → Elt Ideal .f32 :=
  Cert.MemoryScore.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The line after the call flattens the one-column output: entry `i` of the result is row `i` of the column. -/
theorem result_eq (c : Dev nD) :
    Pipeline.afterTail₀ cfgs (dats m) 0 (V0 m) [hostOps1] c main_v8 = Gr m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7) = Gc m c :=
    (Pipeline.withArrays_arr spec0 launch0.win.arr_inj c _ _ 6).trans (final m c)
  funext i
  show shapeCast S16384 (Pipeline.withArrays (cfgs 0).spec c (V0 m c) (fun w => (dats m 0 c).arrAt w (cfgs 0).N) (Proc.devRef .tc main_v7))
    shapeCasts_S16384x1_S16384 i = _
  rw [hw]
  obtain ⟨a, rfl⟩ : ∃ a : Fin 16384, i = ix1 a := ⟨i 0, eq_ix1 i⟩
  refine (shapeCast_apply _ shapeCasts_S16384x1_S16384 (ix1 a) (ix2 a (0 : Fin 1)) ?_).trans rfl
  rw [Shape.rowMajor_val_two, Shape.rowMajor_val_one]
  show a.val * 1 + 0 = a.val
  omega

/-- The kernel program's run, read: the result is the scores of the argument arrays, and the arguments end unchanged. -/
theorem run : θ_run defs (onTc (τ := τ) (main (F := Ideal))) ⟨m, fun _ => 0, ρ⟩ (fun r => ∀ c : Dev nD,
      r.2.mem ((c.tc : Thread nD τ).loc main_v8) = Gr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v8 (Pipeline.mem_restRefs_of main_v8 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Whole
end
-- ==== Proof.lean ====
/-
  The certificate's claim: the kernel program and its jnp reference compute the same scores.

  Both programs, read over the extended reals, send row `i` of `x` through a two-layer perceptron (a relu between the
  layers), take the best inner product of the resulting 32 features with the rows of each of two memory tables, and
  return the logistic of the difference of the two best matches, each scaled by 2⁻⁵ (Proof/Score.lean: `G`).  The
  reference does this on whole arrays (Proof/RefScore.lean); the kernel program transposes and joins the small operands
  on the host, runs the arithmetic on 32 blocks of 512 rows with the two tables scored in one matrix product, and
  flattens the one-column result (Proof/Staged.lean, Proof/BlockScore.lean, Proof/KernelScore.lean).  The two sides add
  and multiply the same numbers in the same order, so the equality needs no law of the extended reals and never uses that
  the inputs are finite.  The rewriting pass changed nothing in the kernel (its ledger is empty), so the idealized
  kernel program is the printed one read at the ideal instance.
-/
import proofs.«148672_j77910706749781_2_alg».proof.Defs
import proofs.«148672_j77910706749781_2_alg».proof.Proof.Gen.Kernel
import proofs.«148672_j77910706749781_2_alg».proof.Proof.Gen.Kernel.Skeleton
import proofs.«148672_j77910706749781_2_alg».proof.Proof.Gen.Kernel.Launch
import proofs.«148672_j77910706749781_2_alg».proof.Proof.Gen.Kernel.Points
import proofs.«148672_j77910706749781_2_alg».proof.Proof.Gen.Kernel.Frame
import proofs.«148672_j77910706749781_2_alg».proof.Proof.Gen.KernelIdeal
import proofs.«148672_j77910706749781_2_alg».proof.Proof.Gen.KernelIdeal.Skeleton
import proofs.«148672_j77910706749781_2_alg».proof.Proof.Gen.KernelIdeal.Launch
import proofs.«148672_j77910706749781_2_alg».proof.Proof.Gen.KernelIdeal.Points
import proofs.«148672_j77910706749781_2_alg».proof.Proof.Gen.KernelIdeal.Frame
import proofs.«148672_j77910706749781_2_alg».proof.Proof.Gen.ReferenceIdeal
import proofs.«148672_j77910706749781_2_alg».proof.Proof.Gen.ReferenceIdeal.Run
import proofs.«148672_j77910706749781_2_alg».proof.Proof.Gen.ReferenceIdeal.Read
import proofs.«148672_j77910706749781_2_alg».proof.Proof.Gen.Pre_finite_inputs
import proofs.«148672_j77910706749781_2_alg».proof.Proof.Score
import proofs.«148672_j77910706749781_2_alg».proof.Proof.RefScore
import proofs.«148672_j77910706749781_2_alg».proof.Proof.Staged
import proofs.«148672_j77910706749781_2_alg».proof.Proof.BlockScore
import proofs.«148672_j77910706749781_2_alg».proof.Proof.KernelScore
import Idealize.ShloMosaic.Adequacy
import Idealize.ShloMosaic.Init

noncomputable section

namespace Cert.Proof

open Idealize.ShloMosaic Idealize.SL.Sem

/-- The word-level kernel program runs and leaves its arguments as they were. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- And the reference: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the seven arguments both idealized programs end with the scores `G` of those
    arguments: the kernel program block of rows by block of rows, the reference in one piece. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.Gr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
